-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S2x3200000 : Shape := ⟨2, ![2, 3200000]⟩
abbrev S256x256 : Shape := ⟨2, ![256, 256]⟩
abbrev S256 : Shape := ⟨1, ![256]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn {F : FTy → Type} [FloatOps F] (main_arg0 : FVec F S100000x256 .f32) (main_arg1 : IVec S2x3200000 32) (main_arg2 : FVec F S256x256 .f32) (main_arg3 : FVec F S256 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S256x256 .f32 := Host.absf main_arg2
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  main_v13
-- ==== Kernel.lean ====
abbrev S100000x256 : Shape := ⟨2, ![100000, 256]⟩
abbrev S2x3200000 : Shape := ⟨2, ![2, 3200000]⟩
abbrev S256x256 : Shape := ⟨2, ![256, 256]⟩
abbrev S256 : Shape := ⟨1, ![256]⟩
abbrev S_ : Shape := ⟨0, ![]⟩
abbrev S3200000 : Shape := ⟨1, ![3200000]⟩
abbrev S1x3200000 : Shape := ⟨2, ![1, 3200000]⟩
abbrev S100000 : Shape := ⟨1, ![100000]⟩
abbrev S3200000x1 : Shape := ⟨2, ![3200000, 1]⟩
abbrev S100000x1 : Shape := ⟨2, ![100000, 1]⟩
abbrev S1x256 : Shape := ⟨2, ![1, 256]⟩
abbrev S5000x256 : Shape := ⟨2, ![5000, 256]⟩
abbrev S5000x1 : Shape := ⟨2, ![5000, 1]⟩

abbrev nBuf : Space → Nat
  | .hbm => 20
  | .vmem => 8
  | .smem => 0
  | _ => 0

abbrev bufTy : (tb : Table) → Fin (tcTables nBuf tb) → BufTy
  | .hbm, ⟨0, _⟩ => ⟨S100000x256, .f32⟩
  | .hbm, ⟨1, _⟩ => ⟨S2x3200000, .i32⟩
  | .hbm, ⟨2, _⟩ => ⟨S256x256, .f32⟩
  | .hbm, ⟨3, _⟩ => ⟨S256, .f32⟩
  | .hbm, ⟨4, _⟩ => ⟨S_, .f32⟩
  | .hbm, ⟨5, _⟩ => ⟨S3200000, .f32⟩
  | .hbm, ⟨6, _⟩ => ⟨S1x3200000, .i32⟩
  | .hbm, ⟨7, _⟩ => ⟨S3200000, .i32⟩
  | .hbm, ⟨8, _⟩ => ⟨S_, .f32⟩
  | .hbm, ⟨9, _⟩ => ⟨S100000, .f32⟩
  | .hbm, ⟨10, _⟩ => ⟨S3200000x1, .i32⟩
  | .hbm, ⟨11, _⟩ => ⟨S100000, .f32⟩
  | .hbm, ⟨12, _⟩ => ⟨S_, .f32⟩
  | .hbm, ⟨13, _⟩ => ⟨S100000, .f32⟩
  | .hbm, ⟨14, _⟩ => ⟨S100000, .f32⟩
  | .hbm, ⟨15, _⟩ => ⟨S100000x1, .f32⟩
  | .hbm, ⟨16, _⟩ => ⟨S256x256, .f32⟩
  | .hbm, ⟨17, _⟩ => ⟨S256x256, .bf16⟩
  | .hbm, ⟨18, _⟩ => ⟨S1x256, .f32⟩
  | .hbm, ⟨19, _⟩ => ⟨S100000x256, .f32⟩
  | .local _ .vmem, ⟨0, _⟩ => ⟨S5000x256, .f32⟩
  | .local _ .vmem, ⟨1, _⟩ => ⟨S5000x256, .f32⟩
  | .local _ .vmem, ⟨2, _⟩ => ⟨S5000x1, .f32⟩
  | .local _ .vmem, ⟨3, _⟩ => ⟨S5000x1, .f32⟩
  | .local _ .vmem, ⟨4, _⟩ => ⟨S256x256, .bf16⟩
  | .local _ .vmem, ⟨5, _⟩ => ⟨S1x256, .f32⟩
  | .local _ .vmem, ⟨6, _⟩ => ⟨S5000x256, .f32⟩
  | .local _ .vmem, ⟨7, _⟩ => ⟨S5000x256, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S5000x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  bcast_S_S3200000 : S_.BroadcastsInDim S3200000 (![] : Fin 0 → Fin S3200000.rank)
  slices_S2x3200000_S1x3200000_0_0 : S2x3200000.Slices ![0, 0] S1x3200000
  shapeCasts_S1x3200000_S3200000 : S1x3200000.ShapeCasts S3200000
  bcast_S_S100000 : S_.BroadcastsInDim S100000 (![] : Fin 0 → Fin S100000.rank)
  bcast_S3200000_S3200000x1_0 : S3200000.BroadcastsInDim S3200000x1 (![0] : Fin 1 → Fin S3200000x1.rank)
  shapeCasts_S100000_S100000x1 : S100000.ShapeCasts S100000x1
  transposes_S256x256_S256x256_1_0 : S256x256.Transposes [1, 0] S256x256
  bitsLt_bf16_f32 : FTy.bits .bf16 < FTy.bits .f32
  shapeCasts_S256_S1x256 : S256.ShapeCasts S1x256
  inb_S5000x256_S5000x256_0_0 : ∀ a, (![0, 0] : Fin 2 → Nat) a + S5000x256.size a ≤ S5000x256.size a
  h_S5000x256 : 0 < S5000x256.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x256 : S5000x1.Broadcasts S5000x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S5000x256 : S1x256.Broadcasts S5000x256
  scatter_S100000_S3200000x1_S3200000_n_0_0_1_wf : ScatterDims.WF S100000 S3200000x1 S3200000 [] [0] [0] 1
  dot_S5000x256_S256x256_S5000x256_1_0_0_1_n_n_wf : DotDims.WF S5000x256 S256x256 S5000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S100000x256.size a
  hwx0_0 : ∀ i : grid0.Coords, EltTy.bits .f32 = 32 ∨ (Rect.block (s := S100000x256) S5000x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S100000x1.size a
  hwx0_1 : ∀ i : grid0.Coords, EltTy.bits .f32 = 32 ∨ (Rect.block (s := S100000x1) S5000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .bf16 = 32 ∨ (Rect.block (s := S256x256) S256x256.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x256.size a ≤ S100000x256.size a
  hwx0_4 : ∀ i : grid0.Coords, EltTy.bits .f32 = 32 ∨ (Rect.block (s := S100000x256) S5000x256.size (cc0_transform_4 i) (hinb0_4 i)).WholeWords (EltTy.packing .f32)

variable [Facts₀]

def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def dot_S5000x256_S256x256_S5000x256_1_0_0_1_n_n : DotDims S5000x256 S256x256 S5000x256 where
  lhsContracting := [1]
  rhsContracting := [0]
  lhsNonContracting := [0]
  rhsNonContracting := [1]
  lhsBatch := []
  rhsBatch := []
  wf := dot_S5000x256_S256x256_S5000x256_1_0_0_1_n_n_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v10) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v11) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v12) S5000x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S100000x256 : Shape := ⟨2, ![100000, 256]⟩
abbrev S2x3200000 : Shape := ⟨2, ![2, 3200000]⟩
abbrev S256x256 : Shape := ⟨2, ![256, 256]⟩
abbrev S256 : Shape := ⟨1, ![256]⟩
abbrev S_ : Shape := ⟨0, ![]⟩
abbrev S3200000 : Shape := ⟨1, ![3200000]⟩
abbrev S1x3200000 : Shape := ⟨2, ![1, 3200000]⟩
abbrev S100000 : Shape := ⟨1, ![100000]⟩
abbrev S3200000x1 : Shape := ⟨2, ![3200000, 1]⟩
abbrev S100000x1 : Shape := ⟨2, ![100000, 1]⟩
abbrev S1x256 : Shape := ⟨2, ![1, 256]⟩

abbrev nBuf : Space → Nat
  | .hbm => 23
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S2x3200000, .i32⟩
  | .hbm, ⟨2, _⟩ => ⟨S256x256, .f32⟩
  | .hbm, ⟨3, _⟩ => ⟨S256, .f32⟩
  | .hbm, ⟨4, _⟩ => ⟨S_, .f32⟩
  | .hbm, ⟨5, _⟩ => ⟨S3200000, .f32⟩
  | .hbm, ⟨6, _⟩ => ⟨S1x3200000, .i32⟩
  | .hbm, ⟨7, _⟩ => ⟨S3200000, .i32⟩
  | .hbm, ⟨8, _⟩ => ⟨S_, .f32⟩
  | .hbm, ⟨9, _⟩ => ⟨S100000, .f32⟩
  | .hbm, ⟨10, _⟩ => ⟨S3200000x1, .i32⟩
  | .hbm, ⟨11, _⟩ => ⟨S100000, .f32⟩
  | .hbm, ⟨12, _⟩ => ⟨S_, .f32⟩
  | .hbm, ⟨13, _⟩ => ⟨S100000, .f32⟩
  | .hbm, ⟨14, _⟩ => ⟨S100000, .f32⟩
  | .hbm, ⟨15, _⟩ => ⟨S100000x1, .f32⟩
  | .hbm, ⟨16, _⟩ => ⟨S100000x256, .f32⟩
  | .hbm, ⟨17, _⟩ => ⟨S100000x256, .f32⟩
  | .hbm, ⟨18, _⟩ => ⟨S256x256, .f32⟩
  | .hbm, ⟨19, _⟩ => ⟨S100000x256, .f32⟩
  | .hbm, ⟨20, _⟩ => ⟨S1x256, .f32⟩
  | .hbm, ⟨21, _⟩ => ⟨S100000x256, .f32⟩
  | .hbm, ⟨22, _⟩ => ⟨S100000x256, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]

class Facts₀ : Prop where
  bcast_S_S3200000 : S_.BroadcastsInDim S3200000 (![] : Fin 0 → Fin S3200000.rank)
  slices_S2x3200000_S1x3200000_0_0 : S2x3200000.Slices ![0, 0] S1x3200000
  shapeCasts_S1x3200000_S3200000 : S1x3200000.ShapeCasts S3200000
  bcast_S_S100000 : S_.BroadcastsInDim S100000 (![] : Fin 0 → Fin S100000.rank)
  bcast_S3200000_S3200000x1_0 : S3200000.BroadcastsInDim S3200000x1 (![0] : Fin 1 → Fin S3200000x1.rank)
  bcast_S100000_S100000x1_0 : S100000.BroadcastsInDim S100000x1 (![0] : Fin 1 → Fin S100000x1.rank)
  bcast_S100000x1_S100000x256_0_1 : S100000x1.BroadcastsInDim S100000x256 (![0, 1] : Fin 2 → Fin S100000x256.rank)
  transposes_S256x256_S256x256_1_0 : S256x256.Transposes [1, 0] S256x256
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  scatter_S100000_S3200000x1_S3200000_n_0_0_1_wf : ScatterDims.WF S100000 S3200000x1 S3200000 [] [0] [0] 1
  dot_S100000x256_S256x256_S100000x256_1_0_0_1_n_n_wf : DotDims.WF S100000x256 S256x256 S100000x256 [1] [0] [0] [1] [] []

variable [Facts₀]

def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def dot_S100000x256_S256x256_S100000x256_1_0_0_1_n_n : DotDims S100000x256 S256x256 S100000x256 where
  lhsContracting := [1]
  rhsContracting := [0]
  lhsNonContracting := [0]
  rhsNonContracting := [1]
  lhsBatch := []
  rhsBatch := []
  wf := dot_S100000x256_S256x256_S100000x256_1_0_0_1_n_n_wf

class Facts : Prop extends Facts₀ where

variable [Facts]
-- ==== Proof.Layer.lean ====
/-
  The graph layer this certificate is about, over the extended reals.

  For node features x ([100000, 256]), a degree vector d (100000 entries), weights W ([256, 256]) and a bias b
  (256 entries), entry (r, q) of the layer's output is
      (∑ k, (d r · x(r,k)) · W(q,k)) + b q :
  row r of the features scaled by the node's degree, multiplied by the transposed weights, plus the bias.

  `stagedEntry` is the same entry written from the operands as a blocked evaluation lays them out: the degrees as a
  column D ([100000, 1]), the weights already transposed, Wt(k,q) = W(q,k), the bias as a row B ([1, 256]), and the
  scaling written x · d instead of d · x. The two agree (`staged_eq_layer`) by commutativity of the product of
  extended reals alone: no term is moved across the sum, so no finiteness is needed.
-/
import Idealize.ShloMosaic.Lib.ValueIdx
import Idealize.ShloMosaic.PureOps.Ideal

noncomputable section

namespace Cert.GraphConv

open Idealize.ShloMosaic Idealize.ShloMosaic.ValueIdx

/-- Entry (r, q) of the layer: `(∑ k, (d r · x(r,k)) · W(q,k)) + b q`. -/
def entry (x : (⟨2, ![100000, 256]⟩ : Shape).Idx → EReal) (d : (⟨1, ![100000]⟩ : Shape).Idx → EReal)
    (W : (⟨2, ![256, 256]⟩ : Shape).Idx → EReal) (b : (⟨1, ![256]⟩ : Shape).Idx → EReal)
    (r : Fin 100000) (q : Fin 256) : EReal :=
  (∑ k : Fin 256, (d (ix1 r) * x (ix2 r k)) * W (ix2 q k)) + b (ix1 q)

/-- The layer's output array. -/
def layer (x : (⟨2, ![100000, 256]⟩ : Shape).Idx → EReal) (d : (⟨1, ![100000]⟩ : Shape).Idx → EReal)
    (W : (⟨2, ![256, 256]⟩ : Shape).Idx → EReal) (b : (⟨1, ![256]⟩ : Shape).Idx → EReal) :
    (⟨2, ![100000, 256]⟩ : Shape).Idx → EReal :=
  fun i => entry x d W b (i 0) (i 1)

/-- The same entry from the operands as laid out for a blocked evaluation: degrees as a column, weights transposed,
    bias as a row, the scaling written `x · d`. -/
def stagedEntry (X : (⟨2, ![100000, 256]⟩ : Shape).Idx → EReal) (D : (⟨2, ![100000, 1]⟩ : Shape).Idx → EReal)
    (Wt : (⟨2, ![256, 256]⟩ : Shape).Idx → EReal) (B : (⟨2, ![1, 256]⟩ : Shape).Idx → EReal)
    (r : Fin 100000) (q : Fin 256) : EReal :=
  (∑ k : Fin 256, (X (ix2 r k) * D (ix2 r (0 : Fin 1))) * Wt (ix2 k q)) + B (ix2 (0 : Fin 1) q)

/-- The output array in that form. -/
def staged (X : (⟨2, ![100000, 256]⟩ : Shape).Idx → EReal) (D : (⟨2, ![100000, 1]⟩ : Shape).Idx → EReal)
    (Wt : (⟨2, ![256, 256]⟩ : Shape).Idx → EReal) (B : (⟨2, ![1, 256]⟩ : Shape).Idx → EReal) :
    (⟨2, ![100000, 256]⟩ : Shape).Idx → EReal :=
  fun i => stagedEntry X D Wt B (i 0) (i 1)

/-- When D is the column of d, Wt the transpose of W and B the row of b, the staged form is the layer: entry by entry
    the two sums have the same terms up to the order of the two factors `x(r,k)` and `d r`. -/
theorem staged_eq_layer (x : (⟨2, ![100000, 256]⟩ : Shape).Idx → EReal) (d : (⟨1, ![100000]⟩ : Shape).Idx → EReal)
    (W : (⟨2, ![256, 256]⟩ : Shape).Idx → EReal) (b : (⟨1, ![256]⟩ : Shape).Idx → EReal)
    (D : (⟨2, ![100000, 1]⟩ : Shape).Idx → EReal) (Wt : (⟨2, ![256, 256]⟩ : Shape).Idx → EReal)
    (B : (⟨2, ![1, 256]⟩ : Shape).Idx → EReal)
    (hD : ∀ r : Fin 100000, D (ix2 r (0 : Fin 1)) = d (ix1 r))
    (hW : ∀ (k q : Fin 256), Wt (ix2 k q) = W (ix2 q k))
    (hB : ∀ q : Fin 256, B (ix2 (0 : Fin 1) q) = b (ix1 q)) :
    staged x D Wt B = layer x d W b := by
  funext i
  obtain ⟨r, q, rfl⟩ : ∃ (r : Fin 100000) (q : Fin 256), i = ix2 r q := ⟨i 0, i 1, eq_ix2 i⟩
  show stagedEntry x D Wt B r q = entry x d W b r q
  unfold stagedEntry entry
  rw [hB]
  refine congrArg (· + b (ix1 q)) (Finset.sum_congr rfl fun k _ => ?_)
  rw [hD, hW, mul_comm (x (ix2 r k)) (d (ix1 r))]

end Cert.GraphConv

end
-- ==== Proof.RefLayer.lean ====
/-
  The reference, read entry by entry, is the layer.

  The reference program scales the features by the degrees broadcast along the rows (`deg[:, None] * x`), multiplies
  by the transposed weights with one `dot_general` and adds the bias broadcast along the columns. Read at (r, q),
  one operation at a time: the product is the sum over k of the scaled features at (r, k) times the transposed
  weights at (k, q); the scaled features at (r, k) are the degree of r (the column broadcast reads the column at
  (r, 0), the column the vector at r) times x(r, k); the transposed weights at (k, q) are W(q, k); the bias term
  is b q. That is the layer's entry, with the degree vector the reference's own stage for it.
-/
import proofs.«166677_j33225867002500_1_alg».proof.Proof.Gen.ReferenceIdeal.Read
import proofs.«166677_j33225867002500_1_alg».proof.Proof.Layer

noncomputable section

namespace Cert.ReferenceIdeal.Hand

open Cert.ReferenceIdeal Cert.ReferenceIdeal.Read Idealize.ShloMosaic Idealize.ShloMosaic.ValueIdx Cert.GraphConv

/-- The left operand of the product at output (r, q), contraction position k, is read at (r, k). -/
theorem lidx_eq (r : Fin 100000) (q k : Fin 256) : lidx_main_v12 (ix2 r q) k = ix2 r k :=
  funext fun a => Fin.ext (by match a with | ⟨0, _⟩ => rfl | ⟨1, _⟩ => rfl)

/-- The right operand is read at (k, q). -/
theorem ridx_eq (r : Fin 100000) (q k : Fin 256) : ridx_main_v12 (ix2 r q) k = ix2 k q :=
  funext fun a => Fin.ext (by match a with | ⟨0, _⟩ => rfl | ⟨1, _⟩ => rfl)

/-- The transpose at (k, q) reads the weights at (q, k). -/
theorem tidx_eq (k q : Fin 256) : idx_main_v11 (ix2 k q) = ix2 q k :=
  funext fun a => Fin.ext (by match a with | ⟨0, _⟩ => rfl | ⟨1, _⟩ => rfl)

/-- The degrees broadcast along the rows, read at (r, k), are the degree vector at r. -/
theorem didx_eq (r : Fin 100000) (k : Fin 256) : idx_main_v8 (idx_main_v9 (ix2 r k)) = ix1 r :=
  funext fun a => Fin.ext (by match a with | ⟨0, _⟩ => rfl)

/-- The bias broadcast along the columns, read at (r, q), is the bias at q. -/
theorem bidx_eq (r : Fin 100000) (q : Fin 256) : idx_main_v13 (idx_main_v14 (ix2 r q)) = ix1 q :=
  funext fun a => Fin.ext (by match a with | ⟨0, _⟩ => rfl)

/-- The reference's result is the layer of the features, the reference's degree vector, the weights and the bias. -/
theorem result_eq (x0 : (⟨S100000x256, .f32⟩ : BufTy).Contents (Elt Ideal)) (x1 : (⟨S2x3200000, .i32⟩ : BufTy).Contents (Elt Ideal))
    (x2 : (⟨S256x256, .f32⟩ : BufTy).Contents (Elt Ideal)) (x3 : (⟨S256, .f32⟩ : BufTy).Contents (Elt Ideal)) :
    val_main_v15 (F := Ideal) x0 x1 x2 x3 = layer x0 (val_main_v7 (F := Ideal) x1) x2 x3 := by
  funext i
  obtain ⟨r, q, rfl⟩ : ∃ (r : Fin 100000) (q : Fin 256), i = ix2 r q := ⟨i 0, i 1, eq_ix2 i⟩
  rw [val_main_v15_apply, val_main_v12_apply, val_main_v14_apply, val_main_v13_apply, bidx_eq]
  show (∑ k : Fin 256, _) + x3 (ix1 q) = entry x0 (val_main_v7 (F := Ideal) x1) x2 x3 r q
  unfold entry
  refine congrArg (· + x3 (ix1 q)) (Finset.sum_congr rfl fun k _ => ?_)
  rw [lidx_eq, ridx_eq, val_main_v10_apply, val_main_v9_apply, val_main_v8_apply, didx_eq, val_main_v11_apply, tidx_eq]
  rfl

end Cert.ReferenceIdeal.Hand

end
-- ==== Proof.BlockReads.lean ====
/-
  The input blocks at a grid point, as rows of their arrays.

  The grid has 20 points. At point t the features' window holds rows 5000·t … 5000·t + 4999 of the features array,
  the degrees' window the same rows of the degrees' column, and the weights' and the bias row's windows their whole
  arrays: a block's coordinate in its array is the block index times the block's size plus the coordinate inside the
  block, and the block indices are (t, 0), (t, 0), (0, 0), (0, 0) — decided once over the 20 points.
-/
import proofs.«166677_j33225867002500_1_alg».proof.Proof.Gen.KernelIdeal.Value
import Idealize.ShloMosaic.Lib.Pipeline.Value
import Idealize.ShloMosaic.Lib.ValueIdx
import Idealize.ShloMosaic.PureOps.Ideal
import Idealize.ShloMosaic.Lib.Tactic

noncomputable section

open Idealize.ShloMosaic Idealize.ShloMosaic.TcCoe Idealize.SL.Sem
open Idealize.ShloMosaic.Pipeline (Dat)

namespace Cert.KernelIdeal.Hand

open Cert.KernelIdeal Cert.KernelIdeal.Gen Cert.KernelIdeal.Value Idealize.ShloMosaic.ValueIdx

variable (m : (ℓ : Loc nD τ sig) → Buf (Elt Ideal) ℓ) (ρ : Dev nD → PrngReg)

theorem zero_offsets : (![0, 0] : Fin 2 → Nat) = fun _ => 0 := funext fun a => by fin_cases a <;> rfl

/-- The block indices at point t, decided over the grid: the features, the degrees' column and the result move down
    one block of rows per point; the weights and the bias row stay. -/
theorem block_indices : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-! Where a block's entry sits in its array does not depend on what the array holds, so each read is stated for an
    arbitrary array `A` first and instantiated at the array the region finds afterwards. -/

/-- Any [100000, 256] array read through the features' window at point t, entry (p, k), is the array at row 5000·t + p. -/
theorem features_read (A : S100000x256.Idx → EReal) (t : Fin cfg0.N) (p : Fin 5000) (k : Fin 256) (r : Fin 100000)
    (hr : r.val = t.val * 5000 + p.val) :
    (((cfg0.win 0).blk t).view.read (Elt Ideal) A : Vec Ideal S5000x256 .f32) (ix2 p k) = A (ix2 r k) := by
  obtain ⟨e0, e1, -⟩ := block_indices t
  rw [View.read_apply]
  show A _ = A _
  refine congrArg A ?_
  funext a
  apply Fin.ext
  match a with
  | ⟨0, _⟩ => show win0_0.index t (0 : Fin 2) * 5000 + 1 * p.val = r.val; omega
  | ⟨1, _⟩ => show win0_0.index t (1 : Fin 2) * 256 + 1 * k.val = k.val; omega

/-- Any [100000, 1] column read through the degrees' window at point t, entry (p, 0), is the column at row 5000·t + p. -/
theorem column_read (A : S100000x1.Idx → EReal) (t : Fin cfg0.N) (p : Fin 5000) (r : Fin 100000)
    (hr : r.val = t.val * 5000 + p.val) :
    (((cfg0.win 1).blk t).view.read (Elt Ideal) A : Vec Ideal S5000x1 .f32) (ix2 p (0 : Fin 1)) = A (ix2 r (0 : Fin 1)) := by
  obtain ⟨-, -, e2, e3, -⟩ := block_indices t
  rw [View.read_apply]
  show A _ = A _
  refine congrArg A ?_
  funext a
  apply Fin.ext
  match a with
  | ⟨0, _⟩ => show win0_1.index t (0 : Fin 2) * 5000 + 1 * p.val = r.val; omega
  | ⟨1, _⟩ => show win0_1.index t (1 : Fin 2) * 1 + 1 * 0 = 0; omega

/-- Any [256, 256] array read through the weights' window, at every point, is the array itself. -/
theorem weights_read (A : S256x256.Idx → EReal) (t : Fin cfg0.N) (k q : Fin 256) :
    (((cfg0.win 2).blk t).view.read (Elt Ideal) A : Vec Ideal S256x256 .bf16) (ix2 k q) = A (ix2 k q) := by
  obtain ⟨-, -, -, -, e4, e5, -⟩ := block_indices t
  rw [View.read_apply]
  show A _ = A _
  refine congrArg A ?_
  funext a
  apply Fin.ext
  match a with
  | ⟨0, _⟩ => show win0_2.index t (0 : Fin 2) * 256 + 1 * k.val = k.val; omega
  | ⟨1, _⟩ => show win0_2.index t (1 : Fin 2) * 256 + 1 * q.val = q.val; omega

/-- Any [1, 256] row read through the bias row's window, at every point, is the row itself. -/
theorem row_read (A : S1x256.Idx → EReal) (t : Fin cfg0.N) (q : Fin 256) :
    (((cfg0.win 3).blk t).view.read (Elt Ideal) A : Vec Ideal S1x256 .f32) (ix2 (0 : Fin 1) q) = A (ix2 (0 : Fin 1) q) := by
  obtain ⟨-, -, -, -, -, -, e6, e7, -⟩ := block_indices t
  rw [View.read_apply]
  show A _ = A _
  refine congrArg A ?_
  funext a
  apply Fin.ext
  match a with
  | ⟨0, _⟩ => show win0_3.index t (0 : Fin 2) * 1 + 1 * 0 = 0; omega
  | ⟨1, _⟩ => show win0_3.index t (1 : Fin 2) * 256 + 1 * q.val = q.val; omega

/-- The features' block at point t, entry (p, k), is the features array at row 5000·t + p. -/
theorem features_block (c : Dev nD) (t : Fin cfg0.N) (p : Fin 5000) (k : Fin 256) (r : Fin 100000) (hr : r.val = t.val * 5000 + p.val) :
    (iblk m c 0 t : Vec Ideal S5000x256 .f32) (ix2 p k) = (V m c main_arg0 : S100000x256.Idx → EReal) (ix2 r k) :=
  features_read (V m c main_arg0) t p k r hr

/-- The degrees' block at point t, entry (p, 0), is the column at row 5000·t + p. -/
theorem column_block (c : Dev nD) (t : Fin cfg0.N) (p : Fin 5000) (r : Fin 100000) (hr : r.val = t.val * 5000 + p.val) :
    (iblk m c 1 t : Vec Ideal S5000x1 .f32) (ix2 p (0 : Fin 1)) = (V m c main_v8 : S100000x1.Idx → EReal) (ix2 r (0 : Fin 1)) :=
  column_read (V m c main_v8) t p r hr

/-- The weights' block at every point is the whole weights array. -/
theorem weights_block (c : Dev nD) (t : Fin cfg0.N) (k q : Fin 256) :
    (iblk m c 2 t : Vec Ideal S256x256 .bf16) (ix2 k q) = (V m c main_v10 : S256x256.Idx → EReal) (ix2 k q) :=
  weights_read (V m c main_v10) t k q

/-- The bias row's block at every point is the whole row. -/
theorem row_block (c : Dev nD) (t : Fin cfg0.N) (q : Fin 256) :
    (iblk m c 3 t : Vec Ideal S1x256 .f32) (ix2 (0 : Fin 1) q) = (V m c main_v11 : S1x256.Idx → EReal) (ix2 (0 : Fin 1) q) :=
  row_read (V m c main_v11) t q

end Cert.KernelIdeal.Hand

end
-- ==== Proof.LibKeepdims.lean ====
/-
  Two layout operations read at an index given by coordinates, for a reduction that keeps its reduced axis as a
  unit axis: a vector of `a` entries cast to a column `[a, 1]`, and a column `[a, 1]` broadcast along its unit
  axis to `[a, b]`. Both are instances of the library's general lemmas (a shape cast reads the operand at the index
  with the same row-major position; a broadcast reads the operand at the trailing coordinates, `0` on unit axes)
  with the coordinates' arithmetic discharged.
-/
import Idealize.ShloMosaic.Lib.Pipeline.Value
import Idealize.ShloMosaic.Lib.ValueIdx

namespace Cert.Keepdims

open Idealize.ShloMosaic Idealize.ShloMosaic.ValueIdx

variable {α : Type}

/-- An `[a]` array cast to a column `[a, 1]` reads, at `(i, u)`, the operand at `i`, whatever the unit coordinate `u`:
    the row-major position of `(i, u)` in `[a, 1]` is `i · 1 + 0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Keepdims
-- ==== Proof.LibDenseLayer.lean ====
/-
  A dense graph layer over the extended reals, and a rank-2 matrix product read at an entry.

  The layer: for an adjacency matrix `A` ([N, N]), features `X` ([N, K]), weights `W` ([K, M]), a bias `b` (M
  entries) and a scale `s`, entry (r, c) of the layer's output is
      (∑ j, ((∑ k, A(r,k) · X(k,j)) + s · X(r,j)) · W(j,c)) + b(c):
  the neighbours' features summed and added to the scaled own features, then the linear map and the bias. `rowLayer`
  is the same entry written from row r of `A` and row r of `X` alone, which is what one row band of a blocked
  evaluation has at hand; `layerAt` is `rowLayer` at the two rows (`layerAt_eq_rowLayer`).

  `matmul_rows_cols`: a matrix unit's product of an [A, K] by a [K, B] matrix into a zero accumulator, read at (p, q),
  is ∑ k, L(p,k) · R(k,q) — stated for any dimension record whose four index facts (the left index takes the output
  row and the contraction position, the right index the contraction position and the output column) are supplied.
-/
import Idealize.ShloMosaic.Lib.ValueIdx
import Idealize.ShloMosaic.Lib.Pipeline.Value
import Idealize.ShloMosaic.PureOps.Ideal.Laws

noncomputable section

namespace Cert.DenseLayer

open Idealize.ShloMosaic Idealize.ShloMosaic.ValueIdx

/-- Entry `c` of one output row of the layer, from that row `a` of the adjacency matrix and that row `xr` of the
    features: `(∑ j, ((∑ k, a k · X(k,j)) + s · xr j) · W(j,c)) + b c`. -/
def rowLayer {N K M : ℕ} (a : Fin N → EReal) (X : (⟨2, ![N, K]⟩ : Shape).Idx → EReal)
    (W : (⟨2, ![K, M]⟩ : Shape).Idx → EReal) (b : Fin M → EReal) (s : EReal) (xr : Fin K → EReal) (c : Fin M) : EReal :=
  (∑ j : Fin K, ((∑ k : Fin N, a k * X (ix2 k j)) + s * xr j) * W (ix2 j c)) + b c

/-- Entry (r, c) of the layer's output. -/
def layerAt {N K M : ℕ} (A : (⟨2, ![N, N]⟩ : Shape).Idx → EReal) (X : (⟨2, ![N, K]⟩ : Shape).Idx → EReal)
    (W : (⟨2, ![K, M]⟩ : Shape).Idx → EReal) (b : Fin M → EReal) (s : EReal) (r : Fin N) (c : Fin M) : EReal :=
  (∑ j : Fin K, ((∑ k : Fin N, A (ix2 r k) * X (ix2 k j)) + s * X (ix2 r j)) * W (ix2 j c)) + b c

/-- The entry from the two rows it depends on. -/
theorem layerAt_eq_rowLayer {N K M : ℕ} (A : (⟨2, ![N, N]⟩ : Shape).Idx → EReal) (X : (⟨2, ![N, K]⟩ : Shape).Idx → EReal)
    (W : (⟨2, ![K, M]⟩ : Shape).Idx → EReal) (b : Fin M → EReal) (s : EReal) (r : Fin N) (c : Fin M) :
    layerAt A X W b s r c = rowLayer (fun k => A (ix2 r k)) X W b s (fun j => X (ix2 r j)) c := rfl

/-- The same entry with the own-features term written first (`s · X(r,j) + ∑ k, A(r,k) · X(k,j)`): addition of
    extended reals is commutative. -/
theorem layerAt_comm {N K M : ℕ} (A : (⟨2, ![N, N]⟩ : Shape).Idx → EReal) (X : (⟨2, ![N, K]⟩ : Shape).Idx → EReal)
    (W : (⟨2, ![K, M]⟩ : Shape).Idx → EReal) (b : Fin M → EReal) (s : EReal) (r : Fin N) (c : Fin M) :
    (∑ j : Fin K, (s * X (ix2 r j) + ∑ k : Fin N, A (ix2 r k) * X (ix2 k j)) * W (ix2 j c)) + b c = layerAt A X W b s r c := by
  unfold layerAt
  refine congrArg (· + b c) (Finset.sum_congr rfl fun j _ => ?_)
  rw [add_comm]

/-- A matrix product into a zero accumulator, read at (p, q): the sum over the contracted axis of the left operand's
    row p times the right operand's column q. -/
theorem matmul_rows_cols {A K B : ℕ} {φ₁ φ₂ : FTy}
    (d : DotDims ⟨2, ![A, K]⟩ ⟨2, ![K, B]⟩ ⟨2, ![A, B]⟩) (hr : d.contr.rank = 1) (hs : d.contr.size ⟨0, by omega⟩ = K)
    (hl0 : ∀ (i : (⟨2, ![A, B]⟩ : Shape).Idx) (q : d.contr.Idx), (d.lhsIdx i q 0).val = (i 0).val)
    (hl1 : ∀ (i : (⟨2, ![A, B]⟩ : Shape).Idx) (q : d.contr.Idx), (d.lhsIdx i q 1).val = (q ⟨0, by omega⟩).val)
    (hr0 : ∀ (i : (⟨2, ![A, B]⟩ : Shape).Idx) (q : d.contr.Idx), (d.rhsIdx i q 0).val = (q ⟨0, by omega⟩).val)
    (hr1 : ∀ (i : (⟨2, ![A, B]⟩ : Shape).Idx) (q : d.contr.Idx), (d.rhsIdx i q 1).val = (i 1).val)
    (prec : Option ContractPrecision) (L : FVec Ideal ⟨2, ![A, K]⟩ φ₁) (R : FVec Ideal ⟨2, ![K, B]⟩ φ₂) (p : Fin A) (q : Fin B) :
    FloatOps.matmul d prec L R (constant ⟨2, ![A, B]⟩ .f32 0x00000000#32) (ix2 p q)
      = ∑ k : Fin K, L (ix2 p k) * R (ix2 k q) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (hl1 _ _).trans hk)
  have er : d.rhsIdx (ix2 p q) ((contrEquiv1 d K hr hs).symm k) = ix2 k q := funext fun a => Fin.ext (by
    match a with
    | ⟨0, _⟩ => exact (hr0 _ _).trans hk
    | ⟨1, _⟩ => exact hr1 _ _)
  rw [el, er]

end Cert.DenseLayer

end
-- ==== Proof.Payload.lean ====
/-
  What the kernel body stores, read at an entry of the block.

  The body loads a block of 5000 feature rows, the matching 5000 degrees as a column, the whole transposed weight
  matrix and the bias row; it scales each feature row by its degree (the column broadcast along the row), multiplies
  by the weights on the matrix unit into a zero accumulator, and adds the bias row broadcast down the rows. At the
  ideal values the change of format before the product is the identity, and the product into a zero accumulator is
  the plain sum over the contracted axis. So entry (p, q) of the stored block is
      (∑ k, (x(p,k) · d(p,0)) · wt(k,q)) + b(0,q).
-/
import proofs.«166677_j33225867002500_1_alg».proof.Proof.Gen.KernelIdeal.Skeleton
import proofs.«166677_j33225867002500_1_alg».proof.Proof.LibKeepdims
import proofs.«166677_j33225867002500_1_alg».proof.Proof.LibDenseLayer
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Hand

open Cert.KernelIdeal Cert.KernelIdeal.Gen Idealize.ShloMosaic Idealize.ShloMosaic.ValueIdx

/-- The product contracts one axis, of 256 positions. -/
theorem dot_rank : dot_S5000x256_S256x256_S5000x256_1_0_0_1_n_n.contr.rank = 1 := rfl
theorem dot_size : dot_S5000x256_S256x256_S5000x256_1_0_0_1_n_n.contr.size ⟨0, by decide⟩ = 256 := rfl

/-- The left operand is read at the output's row and the contraction position, -/
theorem dot_lhs0 (i : S5000x256.Idx) (q : dot_S5000x256_S256x256_S5000x256_1_0_0_1_n_n.contr.Idx) : (dot_S5000x256_S256x256_S5000x256_1_0_0_1_n_n.lhsIdx i q 0).val = (i 0).val := by
  unfold DotDims.lhsIdx
  rw [dif_neg (show ¬(0 : Fin S5000x256.rank) ∈ dot_S5000x256_S256x256_S5000x256_1_0_0_1_n_n.lhsBatch by decide), dif_pos (show (0 : Fin S5000x256.rank) ∈ dot_S5000x256_S256x256_S5000x256_1_0_0_1_n_n.lhsNonContracting by decide)]
  rfl
theorem dot_lhs1 (i : S5000x256.Idx) (q : dot_S5000x256_S256x256_S5000x256_1_0_0_1_n_n.contr.Idx) : (dot_S5000x256_S256x256_S5000x256_1_0_0_1_n_n.lhsIdx i q 1).val = (q ⟨0, by decide⟩).val :=
  dot_S5000x256_S256x256_S5000x256_1_0_0_1_n_n.lhsIdx_val_of_single rfl i q
/-- the right operand at the contraction position and the output's column. -/
theorem dot_rhs0 (i : S5000x256.Idx) (q : dot_S5000x256_S256x256_S5000x256_1_0_0_1_n_n.contr.Idx) : (dot_S5000x256_S256x256_S5000x256_1_0_0_1_n_n.rhsIdx i q 0).val = (q ⟨0, by decide⟩).val :=
  dot_S5000x256_S256x256_S5000x256_1_0_0_1_n_n.rhsIdx_val_of_single rfl i q
theorem dot_rhs1 (i : S5000x256.Idx) (q : dot_S5000x256_S256x256_S5000x256_1_0_0_1_n_n.contr.Idx) : (dot_S5000x256_S256x256_S5000x256_1_0_0_1_n_n.rhsIdx i q 1).val = (i 1).val := by
  unfold DotDims.rhsIdx
  rw [dif_neg (show ¬(1 : Fin S256x256.rank) ∈ dot_S5000x256_S256x256_S5000x256_1_0_0_1_n_n.rhsBatch by decide), dif_pos (show (1 : Fin S256x256.rank) ∈ dot_S5000x256_S256x256_S5000x256_1_0_0_1_n_n.rhsNonContracting by decide)]
  rfl

/-- Entry (p, q) of the block the body stores, from its four loaded blocks. -/
theorem pay_apply (x0 : Vec Ideal S5000x256 .f32) (x1 : Vec Ideal S5000x1 .f32) (x2 : Vec Ideal S256x256 .bf16) (x3 : Vec Ideal S1x256 .f32)
    (p : Fin 5000) (q : Fin 256) :
    k0_pay1 (F := Ideal) x0 x1 x2 x3 (ix2 p q)
      = (∑ k : Fin 256, (x0 (ix2 p k) * x1 (ix2 p (0 : Fin 1))) * x2 (ix2 k q)) + x3 (ix2 (0 : Fin 1) q) := by
  unfold k0_pay1
  dsimp only [matmul]
  simp only [shapeCast_self]
  rw [addf_apply, broadcastTo_1b_ab_apply,
    Cert.DenseLayer.matmul_rows_cols dot_S5000x256_S256x256_S5000x256_1_0_0_1_n_n dot_rank dot_size dot_lhs0 dot_lhs1 dot_rhs0 dot_rhs1]
  refine congrArg (· + x3 (ix2 (0 : Fin 1) q)) (Finset.sum_congr rfl fun k _ => ?_)
  rw [truncf_apply, mulf_apply, Cert.Keepdims.broadcastTo_a1_ab_apply]

end Cert.KernelIdeal.Hand

end
-- ==== Proof.Flushed.lean ====
/-
  What a grid point writes back.

  Entry (p, q) of the block point t writes back is the stored block's entry (p, q) of the four input blocks at t
  (`pay_apply`); read through the input blocks (`features_block`, `column_block`, `weights_block`, `row_block`)
  that is the staged form's entry (5000·t + p, q) of the four arrays as the region finds them, and (5000·t + p, q) is
  where entry (p, q) of the result's block at t sits in the result array.
-/
import proofs.«166677_j33225867002500_1_alg».proof.Proof.BlockReads
import proofs.«166677_j33225867002500_1_alg».proof.Proof.Payload
import proofs.«166677_j33225867002500_1_alg».proof.Proof.Layer

noncomputable section

open Idealize.ShloMosaic Idealize.ShloMosaic.TcCoe Idealize.SL.Sem
open Idealize.ShloMosaic.Pipeline (Dat)

namespace Cert.KernelIdeal.Hand

open Cert.KernelIdeal Cert.KernelIdeal.Gen Cert.KernelIdeal.Value Idealize.ShloMosaic.ValueIdx Cert.GraphConv

variable (m : (ℓ : Loc nD τ sig) → Buf (Elt Ideal) ℓ) (ρ : Dev nD → PrngReg)

/-- What point t writes back is block t of the staged form over the four arrays as the region finds them. -/
theorem flushed_eq (c : Dev nD) (t : Fin cfg0.N) :
    (dats m 0 c).flushed 4 t = ((cfg0.win 4).blk t).view.read (Elt Ideal)
      (staged (V m c main_arg0) (V m c main_v8) (V m c main_v10) (V m c main_v11)) := by
  rw [flushed4]
  unfold out0_4
  rw [View.canon_unit_zero zero_offsets]
  simp only [View.ld_unit_zero (S := S5000x256) zero_offsets, View.ld_unit_zero (S := S5000x1) zero_offsets,
    View.ld_unit_zero (S := S256x256) zero_offsets, View.ld_unit_zero (S := S1x256) zero_offsets]
  funext j
  obtain ⟨p, q, rfl⟩ : ∃ (p : Fin 5000) (q : Fin 256), j = (ix2 p q : S5000x256.Idx) := ⟨j 0, j 1, eq_ix2 (n0 := 5000) (n1 := 256) j⟩
  have ht : t.val < 20 := by have h := t.isLt; have hN : cfg0.N = 20 := N_0; omega
  have hp : p.val < 5000 := p.isLt
  obtain ⟨-, -, -, -, -, -, -, -, e8, e9⟩ := block_indices t
  have hemb : ((cfg0.win 4).blk t).view.emb (ix2 p q : S5000x256.Idx) = (ix2 (⟨t.val * 5000 + p.val, by omega⟩ : Fin 100000) q : S100000x256.Idx) := by
    funext a
    apply Fin.ext
    match a with
    | ⟨0, _⟩ => show win0_4.index t (0 : Fin 2) * 5000 + 1 * p.val = t.val * 5000 + p.val; omega
    | ⟨1, _⟩ => show win0_4.index t (1 : Fin 2) * 256 + 1 * q.val = q.val; omega
  show k0_pay1 (F := Ideal) (iblk m c 0 t) (iblk m c 1 t) (iblk m c 2 t) (iblk m c 3 t) (ix2 p q)
    = staged (V m c main_arg0) (V m c main_v8) (V m c main_v10) (V m c main_v11) (((cfg0.win 4).blk t).view.emb (ix2 p q : S5000x256.Idx))
  rw [hemb]
  refine (pay_apply (iblk m c 0 t) (iblk m c 1 t) (iblk m c 2 t) (iblk m c 3 t) p q).trans ?_
  show _ = stagedEntry (V m c main_arg0) (V m c main_v8) (V m c main_v10) (V m c main_v11) ⟨t.val * 5000 + p.val, by omega⟩ q
  unfold stagedEntry
  refine congrArg₂ (· + ·) (Finset.sum_congr rfl fun k _ => ?_) (row_block m c t q)
  rw [features_block m c t p k ⟨t.val * 5000 + p.val, by omega⟩ rfl, column_block m c t p ⟨t.val * 5000 + p.val, by omega⟩ rfl,
    weights_block m c t k q]

end Cert.KernelIdeal.Hand

end
-- ==== Proof.HostSide.lean ====
/-
  What the region finds in the three arrays the host part of the kernel's program writes, and hence that the staged
  form of the output over the four operand arrays is the layer of the program's arguments.

  Before the one region the program computes the degree vector (one plus a scatter-add of ones at the edges' source
  nodes), reshapes it to a column, transposes the weights and changes their format (the identity at the ideal
  values), and reshapes the bias to a row. So the column read at (r, 0) is the degree vector at r, the weights array
  read at (k, q) is W(q, k), and the row read at (0, q) is the bias at q — the three relations under which the staged
  form is the layer.
-/
import proofs.«166677_j33225867002500_1_alg».proof.Proof.Gen.KernelIdeal.Frame
import proofs.«166677_j33225867002500_1_alg».proof.Proof.Layer
import proofs.«166677_j33225867002500_1_alg».proof.Proof.LibKeepdims
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal

noncomputable section

namespace Cert.KernelIdeal.Hand

open Cert.KernelIdeal Cert.KernelIdeal.Gen Idealize.ShloMosaic Idealize.ShloMosaic.TcCoe Idealize.SL.Sem
open Idealize.ShloMosaic.StableHlo Idealize.ShloMosaic.ValueIdx Cert.GraphConv

variable (m : (ℓ : Loc nD τ sig) → Buf (Elt Ideal) ℓ)

/-- The degree vector as the program computes it from the edge list: one, plus the scatter-add into zeros of a one
    per edge at the edge's source node (row 0 of the edge list). -/
def degree (a1 : (⟨S2x3200000, .i32⟩ : BufTy).Contents (Elt Ideal)) : (⟨S100000, .f32⟩ : BufTy).Contents (Elt Ideal) :=
  addf (F := Ideal) (broadcastInDim S100000 ![] bcast_S_S100000 (constant (F := Ideal) S_ .f32 0x3F800000#32))
    (Host.scatterAdd (F := Ideal) scatter_S100000_S3200000x1_S3200000_n_0_0_1
      (broadcastInDim S100000 ![] bcast_S_S100000 (constant (F := Ideal) S_ .f32 0x00000000#32))
      (broadcastInDim S3200000x1 ![0] bcast_S3200000_S3200000x1_0
        (shapeCast S3200000 (extractStridedSlice S1x3200000 ![0, 0] a1 slices_S2x3200000_S1x3200000_0_0) shapeCasts_S1x3200000_S3200000))
      (broadcastInDim S3200000 ![] bcast_S_S3200000 (constant (F := Ideal) S_ .f32 0x3F800000#32)))

/-- The degrees' column as the region finds it: the degree vector reshaped to [100000, 1]. -/
theorem column_eq (c : Dev nD) :
    (V m c main_v8 : S100000x1.Idx → EReal)
      = shapeCast S100000x1 (degree (m ((c.tc : Thread nD τ).loc main_arg1))) shapeCasts_S100000_S100000x1 := by
  dsimp only [Gen.V, Gen.hostOps0]
  after_results <;> rfl

/-- The weights as the region finds them: transposed, then changed of format. -/
theorem weights_eq (c : Dev nD) :
    (V m c main_v10 : S256x256.Idx → EReal)
      = truncf (F := Ideal) .bf16 (transpose S256x256 [1, 0] (m ((c.tc : Thread nD τ).loc main_arg2)) transposes_S256x256_S256x256_1_0) bitsLt_bf16_f32 := by
  dsimp only [Gen.V, Gen.hostOps0]
  after_results <;> rfl

/-- The bias as the region finds it: reshaped to a row [1, 256]. -/
theorem row_eq (c : Dev nD) :
    (V m c main_v11 : S1x256.Idx → EReal) = shapeCast S1x256 (m ((c.tc : Thread nD τ).loc main_arg3)) shapeCasts_S256_S1x256 := by
  dsimp only [Gen.V, Gen.hostOps0]
  after_results <;> rfl

/-- The column at (r, 0) is the degree of r. -/
theorem column_apply (c : Dev nD) (r : Fin 100000) :
    (V m c main_v8 : S100000x1.Idx → EReal) (ix2 r (0 : Fin 1)) = degree (m ((c.tc : Thread nD τ).loc main_arg1)) (ix1 r) := by
  rw [column_eq]
  exact Cert.Keepdims.shapeCast_a_a1_apply _ shapeCasts_S100000_S100000x1 r 0

/-- The weights array at (k, q) is W(q, k). -/
theorem weights_apply (c : Dev nD) (k q : Fin 256) :
    (V m c main_v10 : S256x256.Idx → EReal) (ix2 k q) = (m ((c.tc : Thread nD τ).loc main_arg2) : S256x256.Idx → EReal) (ix2 q k) := by
  rw [weights_eq, truncf_apply]
  exact transpose_ix2_apply _ transposes_S256x256_S256x256_1_0 k q

/-- The row at (0, q) is the bias at q. -/
theorem row_apply (c : Dev nD) (q : Fin 256) :
    (V m c main_v11 : S1x256.Idx → EReal) (ix2 (0 : Fin 1) q) = (m ((c.tc : Thread nD τ).loc main_arg3) : S256.Idx → EReal) (ix1 q) := by
  rw [row_eq]
  exact shapeCast_a_1a_apply _ shapeCasts_S256_S1x256 0 q

/-- So the staged form over the four arrays the region stages is the layer of the program's arguments, with the
    degree vector the program computes. -/
theorem staged_V_eq_layer (c : Dev nD) :
    staged (V m c main_arg0) (V m c main_v8) (V m c main_v10) (V m c main_v11)
      = layer (m ((c.tc : Thread nD τ).loc main_arg0)) (degree (m ((c.tc : Thread nD τ).loc main_arg1)))
          (m ((c.tc : Thread nD τ).loc main_arg2)) (m ((c.tc : Thread nD τ).loc main_arg3)) := by
  rw [V_main_arg0 m c]
  exact staged_eq_layer _ _ _ _ _ _ _ (column_apply m c) (weights_apply m c) (row_apply m c)

end Cert.KernelIdeal.Hand

end
-- ==== Proof.Blocks.lean ====
/-
  The blocks cover the result array, so after the run it is the layer of the program's arguments.

  Row r of the result lies in the block of point r / 5000: 5000·(r / 5000) ≤ r < 5000·(r / 5000) + 5000. Every point
  writes its block back, so the array ends holding the staged form over the arrays the region found (each point's
  block is that form's block, `flushed_eq`), which is the layer (`staged_V_eq_layer`).
-/
import proofs.«166677_j33225867002500_1_alg».proof.Proof.Flushed
import proofs.«166677_j33225867002500_1_alg».proof.Proof.HostSide

noncomputable section

open Idealize.ShloMosaic Idealize.ShloMosaic.TcCoe Idealize.SL.Sem
open Idealize.ShloMosaic.Pipeline (Dat)

namespace Cert.KernelIdeal.Hand

open Cert.KernelIdeal Cert.KernelIdeal.Gen Cert.KernelIdeal.Value Idealize.ShloMosaic.ValueIdx Cert.GraphConv

variable (m : (ℓ : Loc nD τ sig) → Buf (Elt Ideal) ℓ) (ρ : Dev nD → PrngReg)

/-- Every entry of the result array is in the block of the point its row falls in. -/
theorem covered (i : S100000x256.Idx) :
    ∃ t : Fin cfg0.N, (cfg0.win 4).flush t = true ∧ i ∈ ((cfg0.win 4).blk t).view.set := by
  have h0 : (i 0).val < 100000 := (i 0).isLt
  have h1 : (i 1).val < 256 := (i 1).isLt
  have hN : cfg0.N = 20 := N_0
  obtain ⟨t, ht⟩ : ∃ t : Fin cfg0.N, t.val = (i 0).val / 5000 := ⟨⟨(i 0).val / 5000, by rw [hN]; omega⟩, rfl⟩
  obtain ⟨-, -, -, -, -, -, -, -, e8, e9⟩ := block_indices t
  refine ⟨t, flush0_4 t, ?_⟩
  show i ∈ ((View.whole main_v12).slice (win0_4.rect t)).set
  rw [View.set_slice_whole, Rect.mem_set_unit]
  intro a
  match a with
  | ⟨0, _⟩ =>
    show win0_4.index t (0 : Fin 2) * 5000 ≤ (i 0).val ∧ (i 0).val < win0_4.index t (0 : Fin 2) * 5000 + 5000
    omega
  | ⟨1, _⟩ =>
    show win0_4.index t (1 : Fin 2) * 256 ≤ (i 1).val ∧ (i 1).val < win0_4.index t (1 : Fin 2) * 256 + 256
    omega

/-- The result array after the run is the layer of the program's arguments. -/
theorem result_array (c : Dev nD) :
    (dats m 0 c).arrAt 4 cfg0.N
      = layer (m ((c.tc : Thread nD τ).loc main_arg0)) (degree (m ((c.tc : Thread nD τ).loc main_arg1)))
          (m ((c.tc : Thread nD τ).loc main_arg2)) (m ((c.tc : Thread nD τ).loc main_arg3)) :=
  ((dats m 0 c).arrAt_eq_of_cover 4 (staged (V m c main_arg0) (V m c main_v8) (V m c main_v10) (V m c main_v11))
    (fun t _ => flushed_eq m c t) covered).trans (staged_V_eq_layer m c)

/-- The run, read: the result array at the layer of the arguments, the arguments unchanged. -/
theorem run : θ_run defs (onTc (τ := τ) (main (F := Ideal))) ⟨m, fun _ => 0, ρ⟩ fun r => ∀ c : Dev nD,
      r.2.mem ((c : Thread nD τ).loc main_v12)
        = layer (m ((c.tc : Thread nD τ).loc main_arg0)) (degree (m ((c.tc : Thread nD τ).loc main_arg1)))
            (m ((c.tc : Thread nD τ).loc main_arg2)) (m ((c.tc : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (result_array m c), (h c).2⟩) (run_blocks m ρ)

end Cert.KernelIdeal.Hand

end
-- ==== Proof.lean ====
/-
  A graph layer computed block by block equals its plain formula, over the extended reals.

  Both programs compute, for node features x ([100000, 256]), an edge list ([2, 3200000]), weights W ([256, 256])
  and a bias b (256 entries), the array whose entry (r, q) is
      (∑ k, (d r · x(r,k)) · W(q,k)) + b q,
  where d is the degree vector: one plus the number of edges leaving the node, obtained by a scatter-add of ones at
  the edges' source nodes. The two programs build d by the same operations on the same literals, so d is carried as
  one term and never opened.

  The reference multiplies the features by the degrees broadcast along the rows, applies one whole matrix product
  with the transposed weights and adds the bias. The kernel's program stages the degrees as a column, the weights
  transposed and the bias as a row, and a grid of 20 points each takes 5000 rows: it scales them (written x · d),
  multiplies them by the weights on the matrix unit into a zero accumulator and adds the bias row. At the ideal
  values a change of float format is the identity, a matrix-unit product into zero and a host `dot_general` are both
  the plain sum over the contracted axis, and the only law that joins the two sides is commutativity of the product
  of two extended reals (`Cert.GraphConv.staged_eq_layer`); nothing is moved across a sum, so the precondition that
  the inputs are finite is not used.

  The modules: `Layer` (the formula and its staged form), `RefLayer` (the reference's result is the formula),
  `Payload` (what the body stores, at an entry), `HostSide` (the arrays the region stages, from the arguments),
  `Blocks` (each point's block, the cover, the result array and the run). Here: the five claims.
-/
import proofs.«166677_j33225867002500_1_alg».proof.Defs
import proofs.«166677_j33225867002500_1_alg».proof.Proof.Gen.Kernel
import proofs.«166677_j33225867002500_1_alg».proof.Proof.Gen.Kernel.Skeleton
import proofs.«166677_j33225867002500_1_alg».proof.Proof.Gen.Kernel.Launch
import proofs.«166677_j33225867002500_1_alg».proof.Proof.Gen.Kernel.Points
import proofs.«166677_j33225867002500_1_alg».proof.Proof.Gen.Kernel.Frame
import proofs.«166677_j33225867002500_1_alg».proof.Proof.Gen.KernelIdeal
import proofs.«166677_j33225867002500_1_alg».proof.Proof.Gen.KernelIdeal.Skeleton
import proofs.«166677_j33225867002500_1_alg».proof.Proof.Gen.KernelIdeal.Launch
import proofs.«166677_j33225867002500_1_alg».proof.Proof.Gen.KernelIdeal.Points
import proofs.«166677_j33225867002500_1_alg».proof.Proof.Gen.KernelIdeal.Frame
import proofs.«166677_j33225867002500_1_alg».proof.Proof.Gen.KernelIdeal.Value
import proofs.«166677_j33225867002500_1_alg».proof.Proof.Gen.ReferenceIdeal
import proofs.«166677_j33225867002500_1_alg».proof.Proof.Gen.ReferenceIdeal.Run
import proofs.«166677_j33225867002500_1_alg».proof.Proof.Gen.ReferenceIdeal.Read
import proofs.«166677_j33225867002500_1_alg».proof.Proof.Gen.Pre_finite_inputs
import proofs.«166677_j33225867002500_1_alg».proof.Proof.Layer
import proofs.«166677_j33225867002500_1_alg».proof.Proof.RefLayer
import proofs.«166677_j33225867002500_1_alg».proof.Proof.Blocks
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference is a straight line of host operations: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- The degree vector the kernel's program computes is the reference's stage for it: the same operations on the same
    literals. -/
theorem degree_eq (a1 : (⟨Cert.ReferenceIdeal.S2x3200000, .i32⟩ : BufTy).Contents (Elt Ideal)) :
    Cert.KernelIdeal.Hand.degree a1 = Cert.ReferenceIdeal.Read.val_main_v7 (F := Ideal) a1 := rfl

/-- From memories that agree on the arguments, the kernel's result array ends at the layer of its arguments (the
    blocks, covered) and the reference's at the layer of its own (its operations read one at a time): one array. -/
theorem algebraic : Cert.algebraic_KernelIdeal_ReferenceIdeal := by
  intro m ρ m' ρ' _ hagree
  refine ⟨fun c => Cert.GraphConv.layer (m ((c.tc : Thread Cert.KernelIdeal.nD Cert.KernelIdeal.τ).loc Cert.KernelIdeal.main_arg0))
      (Cert.KernelIdeal.Hand.degree (m ((c.tc : Thread Cert.KernelIdeal.nD Cert.KernelIdeal.τ).loc Cert.KernelIdeal.main_arg1)))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v15_eq, Cert.ReferenceIdeal.Hand.result_eq,
    (hagree c).1, (hagree c).2.1, (hagree c).2.2.1, (hagree c).2.2.2, ← degree_eq]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
